-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : FVec F S4096x8192 .f32) (main_arg2 : FVec F S8192 .f32) (main_arg3 : IVec S4096 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S8192 : Shape := ⟨1, ![8192]⟩
abbrev S4096 : Shape := ⟨1, ![4096]⟩
abbrev S_ : Shape := ⟨0, ![]⟩
abbrev S4096x1 : Shape := ⟨2, ![4096, 1]⟩
abbrev S8191 : Shape := ⟨1, ![8191]⟩
abbrev S1 : Shape := ⟨1, ![1]⟩
abbrev S1x8192 : Shape := ⟨2, ![1, 8192]⟩
abbrev S128x1 : Shape := ⟨2, ![128, 1]⟩
abbrev S128x8192 : Shape := ⟨2, ![128, 8192]⟩
abbrev S128 : Shape := ⟨1, ![128]⟩

abbrev nBuf : Space → Nat
  | .hbm => 33
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S8192, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S8191, .f32⟩
  | .hbm, ⟨14, _⟩ => ⟨S8191, .f32⟩
  | .hbm, ⟨15, _⟩ => ⟨S8191, .f32⟩
  | .hbm, ⟨16, _⟩ => ⟨S_, .f32⟩
  | .hbm, ⟨17, _⟩ => ⟨S1, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S1x8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S1x8192, .f32⟩
  | .hbm, ⟨28, _⟩ => ⟨S4096x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S128x1, .i32⟩
  | .local _ .vmem, ⟨1, _⟩ => ⟨S128x1, .i32⟩
  | .local _ .vmem, ⟨2, _⟩ => ⟨S1x8192, .f32⟩
  | .local _ .vmem, ⟨3, _⟩ => ⟨S1x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S128x1, .f32⟩
  | .local _ .vmem, ⟨9, _⟩ => ⟨S128x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  shapeCasts_S4096_S4096x1 : S4096.ShapeCasts S4096x1
  slices_S8192_S8191_1 : S8192.Slices ![1] S8191
  slices_S8192_S8191_0 : S8192.Slices ![0] S8191
  bcast_S_S1 : S_.BroadcastsInDim S1 (![] : Fin 0 → Fin S1.rank)
  concatenates_S8191_S1_S8192_d0 : Shape.Concatenates [S8191, S1] S8192 0
  bcast_S_S8192 : S_.BroadcastsInDim S8192 (![] : Fin 0 → Fin S8192.rank)
  shapeCasts_S8192_S1x8192 : S8192.ShapeCasts S1x8192
  concatenates_S1_S8191_S8192_d0 : Shape.Concatenates [S1, S8191] S8192 0
  iota_S128x8192_d1_w32 : S128x8192.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S4096x1.size a
  hwx0_0 : ∀ i : grid0.Coords, EltTy.bits .i32 = 32 ∨ (Rect.block (s := S4096x1) S128x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S4096x8192.size a
  hwx0_3 : ∀ i : grid0.Coords, EltTy.bits .f32 = 32 ∨ (Rect.block (s := S4096x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S4096x8192.size a
  hwx0_4 : ∀ i : grid0.Coords, EltTy.bits .f32 = 32 ∨ (Rect.block (s := S4096x8192) S128x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

abbrev win0_0 : Pipeline.Window sig grid0 :=
  Pipeline.Window.ofSpec (Memref.whole main_v1) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192 : Shape := ⟨1, ![8192]⟩
abbrev S4096 : Shape := ⟨1, ![4096]⟩
abbrev S_ : Shape := ⟨0, ![]⟩
abbrev S8191 : Shape := ⟨1, ![8191]⟩
abbrev S4096x8191 : Shape := ⟨2, ![4096, 8191]⟩
abbrev S1x8191 : Shape := ⟨2, ![1, 8191]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S8192, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S8191, .f32⟩
  | .hbm, ⟨13, _⟩ => ⟨S8191, .f32⟩
  | .hbm, ⟨14, _⟩ => ⟨S8191, .f32⟩
  | .hbm, ⟨15, _⟩ => ⟨S4096x8191, .f32⟩
  | .hbm, ⟨16, _⟩ => ⟨S4096x8191, .f32⟩
  | .hbm, ⟨17, _⟩ => ⟨S4096x8191, .f32⟩
  | .hbm, ⟨18, _⟩ => ⟨S_, .f32⟩
  | .hbm, ⟨19, _⟩ => ⟨S4096x8191, .f32⟩
  | .hbm, ⟨20, _⟩ => ⟨S4096x8191, .f32⟩
  | .hbm, ⟨21, _⟩ => ⟨S1x8191, .f32⟩
  | .hbm, ⟨22, _⟩ => ⟨S4096x8191, .f32⟩
  | .hbm, ⟨23, _⟩ => ⟨S4096x8191, .f32⟩
  | .hbm, ⟨24, _⟩ => ⟨S8191, .i32⟩
  | .hbm, ⟨25, _⟩ => ⟨S1x8191, .i32⟩
  | .hbm, ⟨26, _⟩ => ⟨S4096x1, .i32⟩
  | .hbm, ⟨27, _⟩ => ⟨S4096x8191, .i32⟩
  | .hbm, ⟨28, _⟩ => ⟨S4096x8191, .i32⟩
  | .hbm, ⟨29, _⟩ => ⟨S4096x8191, .i1⟩
  | .hbm, ⟨30, _⟩ => ⟨S_, .f32⟩
  | .hbm, ⟨31, _⟩ => ⟨S_, .f32⟩
  | .hbm, ⟨32, _⟩ => ⟨S4096x8191, .f32⟩
  | .hbm, ⟨33, _⟩ => ⟨S4096x8191, .f32⟩
  | .hbm, ⟨34, _⟩ => ⟨S_, .f32⟩
  | .hbm, ⟨35, _⟩ => ⟨S4096, .f32⟩
  | .hbm, ⟨36, _⟩ => ⟨S8191, .f32⟩
  | .hbm, ⟨37, _⟩ => ⟨S8191, .f32⟩
  | .hbm, ⟨38, _⟩ => ⟨S8191, .f32⟩
  | .hbm, ⟨39, _⟩ => ⟨S4096x8191, .f32⟩
  | .hbm, ⟨40, _⟩ => ⟨S4096x8191, .f32⟩
  | .hbm, ⟨41, _⟩ => ⟨S4096x8191, .f32⟩
  | .hbm, ⟨42, _⟩ => ⟨S_, .f32⟩
  | .hbm, ⟨43, _⟩ => ⟨S4096x8191, .f32⟩
  | .hbm, ⟨44, _⟩ => ⟨S4096x8191, .f32⟩
  | .hbm, ⟨45, _⟩ => ⟨S1x8191, .f32⟩
  | .hbm, ⟨46, _⟩ => ⟨S4096x8191, .f32⟩
  | .hbm, ⟨47, _⟩ => ⟨S4096x8191, .f32⟩
  | .hbm, ⟨48, _⟩ => ⟨S8191, .i32⟩
  | .hbm, ⟨49, _⟩ => ⟨S1x8191, .i32⟩
  | .hbm, ⟨50, _⟩ => ⟨S4096x1, .i32⟩
  | .hbm, ⟨51, _⟩ => ⟨S4096x8191, .i32⟩
  | .hbm, ⟨52, _⟩ => ⟨S4096x8191, .i32⟩
  | .hbm, ⟨53, _⟩ => ⟨S4096x8191, .i1⟩
  | .hbm, ⟨54, _⟩ => ⟨S_, .f32⟩
  | .hbm, ⟨55, _⟩ => ⟨S_, .f32⟩
  | .hbm, ⟨56, _⟩ => ⟨S4096x8191, .f32⟩
  | .hbm, ⟨57, _⟩ => ⟨S4096x8191, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  slices_S8192_S8191_1 : S8192.Slices ![1] S8191
  slices_S8192_S8191_0 : S8192.Slices ![0] S8191
  slices_S4096x8192_S4096x8191_0_0 : S4096x8192.Slices ![0, 0] S4096x8191
  slices_S4096x8192_S4096x8191_0_1 : S4096x8192.Slices ![0, 1] S4096x8191
  bcast_S_S4096x8191 : S_.BroadcastsInDim S4096x8191 (![] : Fin 0 → Fin S4096x8191.rank)
  bcast_S8191_S1x8191_1 : S8191.BroadcastsInDim S1x8191 (![1] : Fin 1 → Fin S1x8191.rank)
  bcast_S1x8191_S4096x8191_0_1 : S1x8191.BroadcastsInDim S4096x8191 (![0, 1] : Fin 2 → Fin S4096x8191.rank)
  bcast_S4096_S4096x1_0 : S4096.BroadcastsInDim S4096x1 (![0] : Fin 1 → Fin S4096x1.rank)
  bcast_S4096x1_S4096x8191_0_1 : S4096x1.BroadcastsInDim S4096x8191 (![0, 1] : Fin 2 → Fin S4096x8191.rank)
  reducesTo_S4096x8191_S4096_d1 : S4096x8191.ReducesTo [1] S4096
  h_S_ : 0 < S_.numel
  reducesTo_S4096_S_d0 : S4096.ReducesTo [0] S_

variable [Facts₀]

class Facts : Prop extends Facts₀ where

variable [Facts]
-- ==== Proof.Spec.lean ====
/-
  The specification: the quantities both programs compute, as plain functions of the four argument arrays.

  For sample `r` (a row of the two `4096 × 8192` arrays) with clipped threshold `θ_r = min(8191, max(0, idx_r))`:
    `refRow D θ Y`  — the masked trapezoid integral of the curve `Y` over the segments below `θ`, segment `j` of width
                      `D j = x_{j+1} − x_j` contributing `½ · (Y_j + Y_{j+1}) · D_j` (the reference's per-curve sum);
    `kerRow θ W0 W1 P T` — the kernel's single weighted sum over the POINTS of the row, `W0` / `W1` its two tables of
                      half-widths, applied to the difference `P − T` of the two curves;
  and the result is `meanSq` of the per-sample error: the sum of the squared errors over the 4096 samples, divided by 4096.
-/
import Idealize.ShloMosaic.PureOps.Ideal
import Idealize.ShloMosaic.PureOps.Ideal.Laws
import Idealize.ShloMosaic.Lib.ValueIdx

namespace Cert.Strain

open Idealize.ShloMosaic Idealize.ShloMosaic.ValueIdx

/-- One half, as both programs spell it. -/
noncomputable def half : EReal := Ideal.ofBits .f32 0x3F000000#32

/-- It is the real number 1/2. -/
theorem half_eq : half = ((1 / 2 : ℝ) : EReal) := by
  unfold half
  simp [Ideal.ofBits, Ideal.ieee, -EReal.coe_mul]
  norm_num

/-- In particular it is finite. -/
theorem half_finite : half ≠ ⊤ ∧ half ≠ ⊥ := by
  rw [half_eq]; exact ⟨EReal.coe_ne_top _, EReal.coe_ne_bot _⟩

/-- The width of segment `j` of the grid `X`: `x_{j+1} − x_j`. -/
noncomputable def dxAt (X : (⟨1, ![8192]⟩ : Shape).Idx → EReal) (j : Fin 8191) : EReal :=
  X (ix1 (⟨j.val + 1, by omega⟩ : Fin 8192)) - X (ix1 (⟨j.val, by omega⟩ : Fin 8192))

/-- Sample `r`'s threshold, clipped to the positions of the grid. -/
def thr (idx : (⟨1, ![4096]⟩ : Shape).Idx → BitVec 32) (r : Fin 4096) : BitVec 32 :=
  IntOp.minsi 8191#32 (IntOp.maxsi 0#32 (idx (ix1 r)))

/-- The kernel's weighted sum over the points of one row. -/
noncomputable def kerRow (θ : BitVec 32) (W0 W1 P T : Fin 8192 → EReal) : EReal :=
  ∑ q : Fin 8192, (Scalar.select (IntOp.cmpi .slt (BitVec.ofNat 32 q.val) θ) (W0 q) 0
      + Scalar.select (IntOp.cmpi .sle (BitVec.ofNat 32 q.val) θ) (W1 q) 0) * (P q - T q)

/-- The reference's masked trapezoid integral of one curve. -/
noncomputable def refRow (D : Fin 8191 → EReal) (θ : BitVec 32) (Y : Fin 8192 → EReal) : EReal :=
  0 + ∑ j : Fin 8191, Scalar.select (IntOp.cmpi .slt (BitVec.ofNat 32 j.val) θ)
      ((half * (Y ⟨j.val, by omega⟩ + Y ⟨j.val + 1, by omega⟩)) * D j) 0

/-- The mean of the squared per-sample errors. -/
noncomputable def meanSq (E : Fin 4096 → EReal) : EReal :=
  Ideal.div (0 + ∑ r : Fin 4096, E r * E r) (Ideal.ofBits .f32 0x45800000#32)

end Cert.Strain
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.KPayload.lean ====
/-
  The kernel body's arithmetic, read at an entry.  A grid point holds 128 samples.  For sample `p` of the point the body
  builds, along the 8192 positions `k` of the row, the weight
      w(p, k) = (k < θ_p ? a_k : 0) + (k ≤ θ_p ? b_k : 0)
  from the point's threshold column `θ` and the two tables `a`, `b` (each one row, shared by all samples), multiplies it
  by the difference of the two curves at `(p, k)`, sums over `k`, and stores the square of the sum in column form.
  So entry `(p, 0)` of what is stored is `kerRow · kerRow` of sample `p`'s threshold, the tables and the two curves.
-/
import proofs.«156395_j84198538871524_2_alg».proof.Proof.Gen.KernelIdeal.Skeleton
import proofs.«156395_j84198538871524_2_alg».proof.Proof.Spec
import proofs.«156395_j84198538871524_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

namespace Cert.KernelIdeal.Strain

open Idealize.ShloMosaic Idealize.ShloMosaic.ValueIdx Cert.KernelIdeal Cert.KernelIdeal.Gen Cert.Strain

/-- The weight at sample `p`, position `k`: the position's word is `k` itself, the threshold column broadcast along the
    row reads sample `p`'s threshold, and each one-row table broadcast over the samples reads its entry `k`. -/
theorem weight_apply (θ : IVec S128x1 32) (a b : FVec Ideal S1x8192 .f32) (p : Fin 128) (k : Fin 8192) :
    (addf
      (select (cmpi .slt (iota .tc S128x8192 32 [1] iota_S128x8192_d1_w32) (broadcastTo S128x8192 θ broadcasts_S128x1_S128x8192))
        (broadcastTo S128x8192 a broadcasts_S1x8192_S128x8192) (broadcast S128x8192 (FloatOps.ofBits (F := Ideal) .f32 0#32)))
      (select (cmpi .sle (iota .tc S128x8192 32 [1] iota_S128x8192_d1_w32) (broadcastTo S128x8192 θ broadcasts_S128x1_S128x8192))
        (broadcastTo S128x8192 b broadcasts_S1x8192_S128x8192) (broadcast S128x8192 (FloatOps.ofBits (F := Ideal) .f32 0#32)))
      : FVec Ideal S128x8192 .f32) (ix2 p k)
      = Scalar.select (IntOp.cmpi .slt (BitVec.ofNat 32 k.val) (θ (ix2 p (0 : Fin 1)))) (a (ix2 (0 : Fin 1) k)) 0
        + Scalar.select (IntOp.cmpi .sle (BitVec.ofNat 32 k.val) (θ (ix2 p (0 : Fin 1)))) (b (ix2 (0 : Fin 1) k)) 0 := by
  show Scalar.select (IntOp.cmpi .slt (iota .tc S128x8192 32 [1] iota_S128x8192_d1_w32 (ix2 p k)) (broadcastTo S128x8192 θ broadcasts_S128x1_S128x8192 (ix2 p k)))
        (broadcastTo S128x8192 a broadcasts_S1x8192_S128x8192 (ix2 p k)) (Ideal.ofBits .f32 0#32)
      + Scalar.select (IntOp.cmpi .sle (iota .tc S128x8192 32 [1] iota_S128x8192_d1_w32 (ix2 p k)) (broadcastTo S128x8192 θ broadcasts_S128x1_S128x8192 (ix2 p k)))
        (broadcastTo S128x8192 b broadcasts_S1x8192_S128x8192 (ix2 p k)) (Ideal.ofBits .f32 0#32) = _
  rw [iota_single_apply, Cert.LibKeepdims.broadcastTo_a1_ab_apply, broadcastTo_1b_ab_apply, broadcastTo_1b_ab_apply,
    Ideal.ofBits_zero_f32]

/-- The sum over the positions of a row, viewed as a column: entry `(p, u)` is the plain sum over `k` of the product
    at `(p, k)`. -/
theorem rowsum_apply (W D : FVec Ideal S128x8192 .f32) (hφ : FKind.Formats .f32)
    (hacc : (0#32 : BitVec FTy.f32.bits) = FKind.add.neutral .f32 hφ) (p : Fin 128) (u : Fin 1) :
    shapeCast S128x1 (multiReduction .add [1] S128 (mulf W D) 0#32 reduces_S128x8192_S128 hφ hacc) shapeCasts_S128_S128x1 (ix2 p u)
      = ∑ k : Fin 8192, W (ix2 p k) * D (ix2 p k) := by
  refine (Cert.LibKeepdims.shapeCast_a_a1_apply _ shapeCasts_S128_S128x1 p u).trans ?_
  refine (Ideal.multiReduction_add_single (mulf W D) 0#32 reduces_S128x8192_S128 hφ hacc (ix1 p)).trans ?_
  refine Finset.sum_congr rfl fun k _ => ?_
  have e : reduces_S128x8192_S128.lift (ix1 p) k = ix2 p k :=
    funext fun a => Fin.ext (by match a with | ⟨0, _⟩ => rfl | ⟨1, _⟩ => rfl)
  show W (reduces_S128x8192_S128.lift (ix1 p) k) * D (reduces_S128x8192_S128.lift (ix1 p) k) = _
  rw [e]
  rfl

/-- What the body stores for sample `p` of a point: the square of the kernel's weighted row sum. -/
theorem pay_apply (v1 : Vec Ideal S128x1 .i32) (v3 v5 : Vec Ideal S1x8192 .f32) (v20 v21 : Vec Ideal S128x8192 .f32)
    (p : Fin 128) (u : Fin 1) :
    k0_pay1 (F := Ideal) v1 v3 v5 v20 v21 (ix2 p u)
      = kerRow (v1 (ix2 p (0 : Fin 1))) (fun q => v3 (ix2 (0 : Fin 1) q)) (fun q => v5 (ix2 (0 : Fin 1) q))
          (fun q => v20 (ix2 p q)) (fun q => v21 (ix2 p q))
        * kerRow (v1 (ix2 p (0 : Fin 1))) (fun q => v3 (ix2 (0 : Fin 1) q)) (fun q => v5 (ix2 (0 : Fin 1) q))
          (fun q => v20 (ix2 p q)) (fun q => v21 (ix2 p q)) := by
  unfold k0_pay1 kerRow
  simp only [shapeCast_self]
  refine (mulf_apply _ _ (ix2 p u)).trans ?_
  refine congrArg₂ (· * ·) ?_ ?_ <;>
    exact (rowsum_apply _ _ _ _ p u).trans
      (Finset.sum_congr rfl fun k _ => congrArg (· * (v20 (ix2 p k) - v21 (ix2 p k))) (weight_apply v1 v3 v5 p k))

end Cert.KernelIdeal.Strain
-- ==== Proof.KArray.lean ====
/-
  From what one grid point writes back to the whole output array.

  The launch has 32 points; point `t` handles the 128 samples `128·t … 128·t + 127`: it is given rows `128·t + p` of the
  thresholds column and of the two curves (and the two one-row tables whole), and writes back entries `128·t + p` of the
  output column.  So what point `t` writes back is block `t` of ONE function of the arrays as the launch finds them —
  `sqErr`: entry `(r, 0)` is the square of the kernel's weighted row sum for sample `r` — and since the 32 blocks tile the
  4096 entries, after the launch the output array is that function.
-/
import proofs.«156395_j84198538871524_2_alg».proof.Proof.Gen.KernelIdeal.Frame
import proofs.«156395_j84198538871524_2_alg».proof.Proof.KPayload
import Idealize.ShloMosaic.Lib.Pipeline.Value
import Idealize.ShloMosaic.Lib.ValueIdx

set_option maxRecDepth 16384

noncomputable section

namespace Cert.KernelIdeal.Strain

open Idealize.ShloMosaic Idealize.ShloMosaic.TcCoe Idealize.ShloMosaic.ValueIdx Idealize.SL.Sem
open Cert.KernelIdeal Cert.KernelIdeal.Gen Cert.Strain
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The per-sample squared error as a column: a function of the thresholds column `θ`, the two one-row tables and the
    two curves. -/
def sqErr (θ : S4096x1.Idx → BitVec 32) (a b : S1x8192.Idx → EReal) (yp yt : S4096x8192.Idx → EReal) : S4096x1.Idx → EReal :=
  fun i =>
    kerRow (θ (ix2 (⟨(i 0).val, (i 0).isLt⟩ : Fin 4096) (0 : Fin 1))) (fun q => a (ix2 (0 : Fin 1) q)) (fun q => b (ix2 (0 : Fin 1) q))
        (fun q => yp (ix2 (⟨(i 0).val, (i 0).isLt⟩ : Fin 4096) q)) (fun q => yt (ix2 (⟨(i 0).val, (i 0).isLt⟩ : Fin 4096) q))
      * kerRow (θ (ix2 (⟨(i 0).val, (i 0).isLt⟩ : Fin 4096) (0 : Fin 1))) (fun q => a (ix2 (0 : Fin 1) q)) (fun q => b (ix2 (0 : Fin 1) q))
        (fun q => yp (ix2 (⟨(i 0).val, (i 0).isLt⟩ : Fin 4096) q)) (fun q => yt (ix2 (⟨(i 0).val, (i 0).isLt⟩ : Fin 4096) q))

/-- The printed index maps over the 32 points: the thresholds' and the two curves' blocks move with the output's along
    the samples, the tables' block is the whole table, and every block sits at column block 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_5.index t (0 : Fin 2) ∧ win0_3.index t (1 : Fin 2) = 0
    ∧ win0_4.index t (0 : Fin 2) = win0_5.index t (0 : Fin 2) ∧ win0_4.index t (1 : Fin 2) = 0
    ∧ win0_5.index t (1 : Fin 2) = 0 ∧ win0_5.index t (0 : Fin 2) ≤ 31 :=
  (by decide +kernel : ∀ t : Fin grid0.N, _)

/-- Every block of 128 samples is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- WHAT POINT `t` WRITES BACK is block `t` of `sqErr` of the arrays as the launch finds them. -/
theorem flushed5_eq (c : Dev nD) (t : Fin cfg0.N) :
    (dats m 0 c).flushed 5 t = ((cfg0.win 5).blk t).view.read (Elt Ideal)
      (sqErr (V m c main_v1) (V m c main_v9) (V m c main_v13) (V m c main_arg0) (V m c main_arg1)) := by
  show (cfg0.win 5).cut (grid0.coords t) ((dats m 0 c).after 5 t) = _
  rw [after0_5]
  unfold out0_5
  rw [View.canon_unit_zero hz]
  simp only [View.ld_unit_zero (S := S128x1) hz, View.ld_unit_zero (S := S1x8192) hz, View.ld_unit_zero (S := S128x8192) hz]
  obtain ⟨e00, e01, e10, e11, e20, e21, e30, e31, e40, e41, e51, e5b⟩ := idx_facts t
  funext j
  obtain ⟨p, u, rfl⟩ : ∃ (p : Fin 128) (u : Fin 1), j = ix2 p u := ⟨j 0, j 1, eq_ix2 j⟩
  refine (pay_apply (iblk m c 0 t) (iblk m c 1 t) (iblk m c 2 t) (iblk m c 3 t) (iblk m c 4 t) p u).trans ?_
  have hp : p.val < 128 := p.isLt
  have hu : u.val < 1 := u.isLt
  -- the sample this entry belongs to
  have hR : win0_5.index t (0 : Fin 2) * 128 + p.val < 4096 := by omega
  -- the output entry's place in the array
  have e5 : ((cfg0.win 5).blk t).view.emb (ix2 p u) = ix2 (⟨win0_5.index t (0 : Fin 2) * 128 + p.val, hR⟩ : Fin 4096) u := by
    funext a; apply Fin.ext
    match a with
    | ⟨0, _⟩ => show win0_5.index t (0 : Fin 2) * 128 + 1 * p.val = win0_5.index t (0 : Fin 2) * 128 + p.val; omega
    | ⟨1, _⟩ => show win0_5.index t (1 : Fin 2) * 1 + 1 * u.val = u.val; omega
  -- each input block, read where the output entry's sample says
  have b0 : iblk m c 0 t (ix2 p (0 : Fin 1)) = V m c main_v1 (ix2 (⟨win0_5.index t (0 : Fin 2) * 128 + p.val, hR⟩ : Fin 4096) (0 : Fin 1)) := by
    show V m c main_v1 (((cfg0.win 0).blk t).view.emb (ix2 p (0 : Fin 1))) = _
    refine congrArg (V m c main_v1) (funext fun a => Fin.ext ?_)
    match a with
    | ⟨0, _⟩ => show win0_0.index t (0 : Fin 2) * 128 + 1 * p.val = win0_5.index t (0 : Fin 2) * 128 + p.val; omega
    | ⟨1, _⟩ => show win0_0.index t (1 : Fin 2) * 1 + 1 * 0 = 0; omega
  have b1 : ∀ q : Fin 8192, iblk m c 1 t (ix2 (0 : Fin 1) q) = V m c main_v9 (ix2 (0 : Fin 1) q) := fun q => by
    have hq : q.val < 8192 := q.isLt
    show V m c main_v9 (((cfg0.win 1).blk t).view.emb (ix2 (0 : Fin 1) q)) = _
    refine congrArg (V m c main_v9) (funext fun a => Fin.ext ?_)
    match a with
    | ⟨0, _⟩ => show win0_1.index t (0 : Fin 2) * 1 + 1 * 0 = 0; omega
    | ⟨1, _⟩ => show win0_1.index t (1 : Fin 2) * 8192 + 1 * q.val = q.val; omega
  have b2 : ∀ q : Fin 8192, iblk m c 2 t (ix2 (0 : Fin 1) q) = V m c main_v13 (ix2 (0 : Fin 1) q) := fun q => by
    have hq : q.val < 8192 := q.isLt
    show V m c main_v13 (((cfg0.win 2).blk t).view.emb (ix2 (0 : Fin 1) q)) = _
    refine congrArg (V m c main_v13) (funext fun a => Fin.ext ?_)
    match a with
    | ⟨0, _⟩ => show win0_2.index t (0 : Fin 2) * 1 + 1 * 0 = 0; omega
    | ⟨1, _⟩ => show win0_2.index t (1 : Fin 2) * 8192 + 1 * q.val = q.val; omega
  have b3 : ∀ q : Fin 8192, iblk m c 3 t (ix2 p q) = V m c main_arg0 (ix2 (⟨win0_5.index t (0 : Fin 2) * 128 + p.val, hR⟩ : Fin 4096) q) := fun q => by
    have hq : q.val < 8192 := q.isLt
    show V m c main_arg0 (((cfg0.win 3).blk t).view.emb (ix2 p q)) = _
    refine congrArg (V m c main_arg0) (funext fun a => Fin.ext ?_)
    match a with
    | ⟨0, _⟩ => show win0_3.index t (0 : Fin 2) * 128 + 1 * p.val = win0_5.index t (0 : Fin 2) * 128 + p.val; omega
    | ⟨1, _⟩ => show win0_3.index t (1 : Fin 2) * 8192 + 1 * q.val = q.val; omega
  have b4 : ∀ q : Fin 8192, iblk m c 4 t (ix2 p q) = V m c main_arg1 (ix2 (⟨win0_5.index t (0 : Fin 2) * 128 + p.val, hR⟩ : Fin 4096) q) := fun q => by
    have hq : q.val < 8192 := q.isLt
    show V m c main_arg1 (((cfg0.win 4).blk t).view.emb (ix2 p q)) = _
    refine congrArg (V m c main_arg1) (funext fun a => Fin.ext ?_)
    match a with
    | ⟨0, _⟩ => show win0_4.index t (0 : Fin 2) * 128 + 1 * p.val = win0_5.index t (0 : Fin 2) * 128 + p.val; omega
    | ⟨1, _⟩ => show win0_4.index t (1 : Fin 2) * 8192 + 1 * q.val = q.val; omega
  simp only [b0, b1, b2, b3, b4]
  show _ = sqErr (V m c main_v1) (V m c main_v9) (V m c main_v13) (V m c main_arg0) (V m c main_arg1)
    (((cfg0.win 5).blk t).view.emb (ix2 p u))
  rw [e5]
  rfl

/-- An index of the output column is in point `t`'s block iff each coordinate is in the block's range on its axis. -/
theorem mem_blk5 (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v14).slice (win0_5.rect t)).set ↔ _
  rw [View.set_slice_whole, Rect.mem_set_unit]
  exact Iff.rfl

/-- The blocks cover the column: sample `r` is in the block of point `r / 128`. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  obtain ⟨t, ht⟩ := idx_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1 ≤ (i 1).val ∧ (i 1).val < win0_5.index t (1 : Fin 2) * 1 + 1; omega

/-- THE OUTPUT ARRAY after the launch: `sqErr` of the arrays as the launch finds them. -/
theorem final5 (c : Dev nD) : (dats m 0 c).arrAt 5 cfg0.N
    = sqErr (V m c main_v1) (V m c main_v9) (V m c main_v13) (V m c main_arg0) (V m c main_arg1) :=
  (dats m 0 c).arrAt_eq_of_cover 5 _ (fun t _ => flushed5_eq m c t) cover5

end Cert.KernelIdeal.Strain

end
-- ==== Proof.Tables.lean ====
/-
  What the kernel's wrapper builds before the launch, read at an entry.

  From the grid `x` (8192 positions) it takes the 8191 segment widths `x_{j+1} − x_j` (the grid without its first
  entry minus the grid without its last), and lays them out twice over the 8192 POINTS, each time scaled by one half:
    table 0 — the widths followed by one zero: point `j` holds half the width of segment `j`, its right-hand segment;
              the last point has none and holds `½ · 0 = 0`;
    table 1 — one zero followed by the widths: point `j + 1` holds half the width of segment `j`, its left-hand segment;
              the first point has none and holds `0`.
  Each table is then viewed as one row `[1, 8192]`.  The thresholds are clipped to `[0, 8191]` and viewed as a column.
-/
import proofs.«156395_j84198538871524_2_alg».proof.Proof.Spec
import proofs.«156395_j84198538871524_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

namespace Cert.Strain

open Idealize.ShloMosaic Idealize.ShloMosaic.ValueIdx

/-- The shapes of this file: the grid, the widths, one entry, a scalar, one row, the thresholds, one column. -/
abbrev ShX : Shape := ⟨1, ![8192]⟩
abbrev ShD : Shape := ⟨1, ![8191]⟩
abbrev ShU : Shape := ⟨1, ![1]⟩
abbrev Sh0 : Shape := ⟨0, ![]⟩
abbrev ShR : Shape := ⟨2, ![1, 8192]⟩
abbrev ShI : Shape := ⟨1, ![4096]⟩
abbrev ShC : Shape := ⟨2, ![4096, 1]⟩

/-- The widths as both programs build them, at segment `j`. -/
theorem widths_apply (X : FVec Ideal ShX .f32) (h1 : ShX.Slices ![1] ShD) (h0 : ShX.Slices ![0] ShD) (j : Fin 8191) :
    (subf (extractStridedSlice ShD ![1] X h1) (extractStridedSlice ShD ![0] X h0) : FVec Ideal ShD .f32) (ix1 j) = dxAt X j := by
  refine (subf_apply _ _ _).trans ?_
  rw [extractStridedSlice_apply ![1] X h1 (ix1 j) (ix1 (⟨j.val + 1, by omega⟩ : Fin 8192))
      (fun a => by match a with | ⟨0, _⟩ => show j.val + 1 = 1 + j.val; omega),
    extractStridedSlice_apply ![0] X h0 (ix1 j) (ix1 (⟨j.val, by omega⟩ : Fin 8192))
      (fun a => by match a with | ⟨0, _⟩ => show j.val = 0 + j.val; omega)]
  rfl

/-- Table 0 at a point that has a right-hand segment: half that segment's width. -/
theorem table0_apply (X : FVec Ideal ShX .f32) (h1 : ShX.Slices ![1] ShD) (h0 : ShX.Slices ![0] ShD)
    (hb : Sh0.BroadcastsInDim ShX (![] : Fin 0 → Fin 1)) (hb1 : Sh0.BroadcastsInDim ShU (![] : Fin 0 → Fin 1))
    (hc : Shape.Concatenates [ShD, ShU] ShX 0) (hs : ShX.ShapeCasts ShR) (j : Fin 8191) :
    shapeCast ShR (mulf (broadcastInDim ShX ![] hb (constant (F := Ideal) Sh0 .f32 0x3F000000#32))
        (concatenate ShX 0 [⟨ShD, subf (extractStridedSlice ShD ![1] X h1) (extractStridedSlice ShD ![0] X h0)⟩,
          ⟨ShU, broadcastInDim ShU ![] hb1 (constant (F := Ideal) Sh0 .f32 0x00000000#32)⟩] hc)) hs
        (ix2 (0 : Fin 1) (⟨j.val, by omega⟩ : Fin 8192)) = half * dxAt X j := by
  refine (shapeCast_a_1a_apply _ hs 0 _).trans ?_
  refine (mulf_apply _ _ _).trans ?_
  refine congrArg₂ (· * ·) rfl ?_
  refine (concatenate_pair_apply_left 0 _ _ hc (ix1 (⟨j.val, by omega⟩ : Fin 8192)) rfl (ix1 j)
    (fun b => by match b with | ⟨0, _⟩ => rfl)).trans ?_
  exact widths_apply X h1 h0 j

/-- Table 0 at the last point: zero. -/
theorem table0_last (X : FVec Ideal ShX .f32) (h1 : ShX.Slices ![1] ShD) (h0 : ShX.Slices ![0] ShD)
    (hb : Sh0.BroadcastsInDim ShX (![] : Fin 0 → Fin 1)) (hb1 : Sh0.BroadcastsInDim ShU (![] : Fin 0 → Fin 1))
    (hc : Shape.Concatenates [ShD, ShU] ShX 0) (hs : ShX.ShapeCasts ShR) :
    shapeCast ShR (mulf (broadcastInDim ShX ![] hb (constant (F := Ideal) Sh0 .f32 0x3F000000#32))
        (concatenate ShX 0 [⟨ShD, subf (extractStridedSlice ShD ![1] X h1) (extractStridedSlice ShD ![0] X h0)⟩,
          ⟨ShU, broadcastInDim ShU ![] hb1 (constant (F := Ideal) Sh0 .f32 0x00000000#32)⟩] hc)) hs
        (ix2 (0 : Fin 1) (⟨8191, by omega⟩ : Fin 8192)) = 0 := by
  refine (shapeCast_a_1a_apply _ hs 0 _).trans ?_
  refine (mulf_apply _ _ _).trans ?_
  rw [concatenate_pair_apply_right 0 _ _ hc (ix1 (⟨8191, by omega⟩ : Fin 8192)) rfl rfl (ix1 (0 : Fin 1))
    (fun b hb => absurd (Fin.ext (by match b with | ⟨0, _⟩ => rfl)) hb) rfl]
  show _ * Ideal.ofBits .f32 0x00000000#32 = 0
  rw [Ideal.ofBits_zero_f32, mul_zero]

/-- Table 1 at a point that has a left-hand segment: half that segment's width. -/
theorem table1_apply (X : FVec Ideal ShX .f32) (h1 : ShX.Slices ![1] ShD) (h0 : ShX.Slices ![0] ShD)
    (hb : Sh0.BroadcastsInDim ShX (![] : Fin 0 → Fin 1)) (hb1 : Sh0.BroadcastsInDim ShU (![] : Fin 0 → Fin 1))
    (hc : Shape.Concatenates [ShU, ShD] ShX 0) (hs : ShX.ShapeCasts ShR) (j : Fin 8191) :
    shapeCast ShR (mulf (broadcastInDim ShX ![] hb (constant (F := Ideal) Sh0 .f32 0x3F000000#32))
        (concatenate ShX 0 [⟨ShU, broadcastInDim ShU ![] hb1 (constant (F := Ideal) Sh0 .f32 0x00000000#32)⟩,
          ⟨ShD, subf (extractStridedSlice ShD ![1] X h1) (extractStridedSlice ShD ![0] X h0)⟩] hc)) hs
        (ix2 (0 : Fin 1) (⟨j.val + 1, by omega⟩ : Fin 8192)) = half * dxAt X j := by
  refine (shapeCast_a_1a_apply _ hs 0 _).trans ?_
  refine (mulf_apply _ _ _).trans ?_
  refine congrArg₂ (· * ·) rfl ?_
  refine (concatenate_pair_apply_right 0 _ _ hc (ix1 (⟨j.val + 1, by omega⟩ : Fin 8192)) rfl rfl (ix1 j)
    (fun b hb => absurd (Fin.ext (by match b with | ⟨0, _⟩ => rfl)) hb) rfl).trans ?_
  exact widths_apply X h1 h0 j

/-- Table 1 at the first point: zero. -/
theorem table1_first (X : FVec Ideal ShX .f32) (h1 : ShX.Slices ![1] ShD) (h0 : ShX.Slices ![0] ShD)
    (hb : Sh0.BroadcastsInDim ShX (![] : Fin 0 → Fin 1)) (hb1 : Sh0.BroadcastsInDim ShU (![] : Fin 0 → Fin 1))
    (hc : Shape.Concatenates [ShU, ShD] ShX 0) (hs : ShX.ShapeCasts ShR) :
    shapeCast ShR (mulf (broadcastInDim ShX ![] hb (constant (F := Ideal) Sh0 .f32 0x3F000000#32))
        (concatenate ShX 0 [⟨ShU, broadcastInDim ShU ![] hb1 (constant (F := Ideal) Sh0 .f32 0x00000000#32)⟩,
          ⟨ShD, subf (extractStridedSlice ShD ![1] X h1) (extractStridedSlice ShD ![0] X h0)⟩] hc)) hs
        (ix2 (0 : Fin 1) (⟨0, by omega⟩ : Fin 8192)) = 0 := by
  refine (shapeCast_a_1a_apply _ hs 0 _).trans ?_
  refine (mulf_apply _ _ _).trans ?_
  rw [concatenate_pair_apply_left 0 _ _ hc (ix1 (⟨0, by omega⟩ : Fin 8192)) rfl (ix1 (0 : Fin 1))
    (fun b => by match b with | ⟨0, _⟩ => rfl)]
  show _ * Ideal.ofBits .f32 0x00000000#32 = 0
  rw [Ideal.ofBits_zero_f32, mul_zero]

/-- The clipped thresholds, viewed as a column, at sample `r`. -/
theorem thrcol_apply (idx : IVec ShI 32) (hb : Sh0.BroadcastsInDim ShI (![] : Fin 0 → Fin 1)) (hs : ShI.ShapeCasts ShC) (r : Fin 4096) :
    shapeCast ShC (minsi (broadcastInDim ShI ![] hb (id (constantI Sh0 32 8191#32)))
      (maxsi (broadcastInDim ShI ![] hb (id (constantI Sh0 32 0#32))) idx)) hs (ix2 r (0 : Fin 1)) = thr idx r := by
  refine (Cert.LibKeepdims.shapeCast_a_a1_apply _ hs r 0).trans ?_
  rfl

end Cert.Strain
-- ==== Proof.KTables.lean ====
/-
  The arrays the launch finds that the wrapper computed: the two tables of half-widths (from the grid, argument 2) and the
  clipped thresholds column (from argument 3).  Each is the composed term of the host operations before the launch, and,
  read at an entry, what `Tables` says: half the width of a point's right-hand / left-hand segment (zero where there is
  none), and the clipped threshold of a sample.
-/
import proofs.«156395_j84198538871524_2_alg».proof.Proof.Gen.KernelIdeal.Frame
import proofs.«156395_j84198538871524_2_alg».proof.Proof.Tables
import Idealize.ShloMosaic.Lib.StableHlo.Run

noncomputable section

namespace Cert.KernelIdeal.Strain

open Idealize.ShloMosaic Idealize.ShloMosaic.TcCoe Idealize.ShloMosaic.ValueIdx Idealize.SL.Sem
open Cert.KernelIdeal Cert.KernelIdeal.Gen Cert.Strain

variable (m : (ℓ : Loc nD τ sig) → Buf (Elt Ideal) ℓ)

/-- The grid as launched. -/
abbrev gridOf (c : Dev nD) : FVec Ideal S8192 .f32 := m ((c : Thread nD τ).loc main_arg2)
/-- The thresholds as launched. -/
abbrev idxOf (c : Dev nD) : IVec S4096 32 := m ((c : Thread nD τ).loc main_arg3)

/-- Table 0 as the launch finds it. -/
theorem V_v9 (c : Dev nD) : (V m c main_v9 : S1x8192.Idx → EReal)
    = shapeCast S1x8192 (mulf (broadcastInDim S8192 ![] bcast_S_S8192 (constant (F := Ideal) S_ .f32 0x3F000000#32))
        (concatenate S8192 0 [⟨S8191, subf (extractStridedSlice S8191 ![1] (gridOf m c) slices_S8192_S8191_1)
            (extractStridedSlice S8191 ![0] (gridOf m c) slices_S8192_S8191_0)⟩,
          ⟨S1, broadcastInDim S1 ![] bcast_S_S1 (constant (F := Ideal) S_ .f32 0x00000000#32)⟩] concatenates_S8191_S1_S8192_d0))
        shapeCasts_S8192_S1x8192 := by
  dsimp only [V, V0]
  simp only [hostOps0, hostOps0_1, hostOps0_2, List.flatten_cons, List.flatten_nil, List.append_nil, List.cons_append, List.nil_append]
  after_results
  rfl

/-- Table 1 as the launch finds it. -/
theorem V_v13 (c : Dev nD) : (V m c main_v13 : S1x8192.Idx → EReal)
    = shapeCast S1x8192 (mulf (broadcastInDim S8192 ![] bcast_S_S8192 (constant (F := Ideal) S_ .f32 0x3F000000#32))
        (concatenate S8192 0 [⟨S1, broadcastInDim S1 ![] bcast_S_S1 (constant (F := Ideal) S_ .f32 0x00000000#32)⟩,
          ⟨S8191, subf (extractStridedSlice S8191 ![1] (gridOf m c) slices_S8192_S8191_1)
            (extractStridedSlice S8191 ![0] (gridOf m c) slices_S8192_S8191_0)⟩] concatenates_S1_S8191_S8192_d0))
        shapeCasts_S8192_S1x8192 := by
  dsimp only [V, V0]
  simp only [hostOps0, hostOps0_1, hostOps0_2, List.flatten_cons, List.flatten_nil, List.append_nil, List.cons_append, List.nil_append]
  after_results
  rfl

/-- The thresholds column as the launch finds it. -/
theorem V_v1 (c : Dev nD) : (V m c main_v1 : S4096x1.Idx → BitVec 32)
    = shapeCast S4096x1 (minsi (broadcastInDim S4096 ![] bcast_S_S4096 (id (constantI S_ 32 8191#32)))
        (maxsi (broadcastInDim S4096 ![] bcast_S_S4096 (id (constantI S_ 32 0#32))) (idxOf m c))) shapeCasts_S4096_S4096x1 := by
  dsimp only [V, V0]
  simp only [hostOps0, hostOps0_1, hostOps0_2, List.flatten_cons, List.flatten_nil, List.append_nil, List.cons_append, List.nil_append]
  after_results
  rfl

/-- Table 0 at a point with a right-hand segment. -/
theorem W0_seg (c : Dev nD) (j : Fin 8191) :
    V m c main_v9 (ix2 (0 : Fin 1) (⟨j.val, by omega⟩ : Fin 8192)) = half * dxAt (gridOf m c) j :=
  (congrFun (V_v9 m c) _).trans (table0_apply _ _ _ _ _ _ _ j)

/-- Table 0 at the last point. -/
theorem W0_last (c : Dev nD) : (V m c main_v9 (ix2 (0 : Fin 1) (⟨8191, by omega⟩ : Fin 8192)) : EReal) = (0 : EReal) :=
  (congrFun (V_v9 m c) _).trans (table0_last _ _ _ _ _ _ _)

/-- Table 1 at a point with a left-hand segment. -/
theorem W1_seg (c : Dev nD) (j : Fin 8191) :
    V m c main_v13 (ix2 (0 : Fin 1) (⟨j.val + 1, by omega⟩ : Fin 8192)) = half * dxAt (gridOf m c) j :=
  (congrFun (V_v13 m c) _).trans (table1_apply _ _ _ _ _ _ _ j)

/-- Table 1 at the first point. -/
theorem W1_first (c : Dev nD) : (V m c main_v13 (ix2 (0 : Fin 1) (⟨0, by omega⟩ : Fin 8192)) : EReal) = (0 : EReal) :=
  (congrFun (V_v13 m c) _).trans (table1_first _ _ _ _ _ _ _)

/-- The thresholds column at sample `r`: the clipped threshold. -/
theorem thr_at (c : Dev nD) (r : Fin 4096) : V m c main_v1 (ix2 r (0 : Fin 1)) = thr (idxOf m c) r :=
  (congrFun (V_v1 m c) _).trans (thrcol_apply _ _ _ r)

end Cert.KernelIdeal.Strain

end
-- ==== Proof.RowLaw.lean ====
/-
  The row law.  For one sample (one row) the two programs integrate a curve by the trapezoid rule up to a threshold:

    reference:  the sum over segments `j` below the threshold of  h · (y_j + y_{j+1}) · dx_j ,
                once for the predicted curve and once for the true one, and the difference of the two sums;
    kernel:     the sum over points `q` of  w_q · (p_q − t_q) ,  the weight `w_q` collecting the half-widths of the
                segment to the right of `q` (when that segment is counted) and of the segment to its left (when that one is).

  Segment `j` is counted by the kernel's left-hand table at point `j` and by its right-hand table at point `j + 1`, and the
  two tables vanish at the one point where they have no segment (the last point, the first point).  Splitting the kernel's
  sum at those two ends turns it into the reference's sum over segments; over the real numbers the rest is distributivity.
  The law is false at infinities (distributivity fails there), so its extended-real form asks every entry to be finite.
-/
import Mathlib.Data.EReal.Basic
import Mathlib.Algebra.BigOperators.Fin
import Idealize.ShloMosaic.PureOps.Ideal

namespace Cert.Strain

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selection between two reals, coerced, is the selection between the coercions. -/
theorem coe_select (c : BitVec 1) (a b : ℝ) : ((Scalar.select c a b : ℝ) : EReal) = Scalar.select c (a : EReal) (b : EReal) := by
  unfold Scalar.select; split <;> rfl

/-- The row law over the reals: `c0` and `c1` are the kernel's two tables of half-widths (`c0` at a point is its
    right-hand segment's, zero at the last point; `c1` its left-hand segment's, zero at the first), `ma` / `mb` the masks
    of the two tables and `mr` the reference's mask of a segment. -/
theorem row_law_real (n : ℕ) (h : ℝ) (dx : Fin n → ℝ) (c0 c1 p t : Fin (n + 1) → ℝ)
    (ma mb : Fin (n + 1) → BitVec 1) (mr : Fin n → BitVec 1)
    (hc0 : ∀ j : Fin n, c0 j.castSucc = h * dx j) (hc0l : c0 (Fin.last n) = 0)
    (hc1 : ∀ j : Fin n, c1 j.succ = h * dx j) (hc10 : c1 0 = 0)
    (hma : ∀ j : Fin n, ma j.castSucc = mr j) (hmb : ∀ j : Fin n, mb j.succ = mr j) :
    ∑ q, (Scalar.select (ma q) (c0 q) 0 + Scalar.select (mb q) (c1 q) 0) * (p q - t q)
      = (0 + ∑ j : Fin n, Scalar.select (mr j) ((h * (p j.castSucc + p j.succ)) * dx j) 0)
        - (0 + ∑ j : Fin n, Scalar.select (mr j) ((h * (t j.castSucc + t j.succ)) * dx j) 0) := by
  have hsel0 : ∀ c : BitVec 1, Scalar.select c (0 : ℝ) 0 = 0 := fun c => by unfold Scalar.select; split <;> rfl
  simp only [add_mul, Finset.sum_add_distrib]
  rw [Fin.sum_univ_castSucc (fun q => Scalar.select (ma q) (c0 q) 0 * (p q - t q)),
    Fin.sum_univ_succ (fun q => Scalar.select (mb q) (c1 q) 0 * (p q - t q)),
    hc0l, hc10, hsel0, hsel0, zero_mul, zero_mul, add_zero, zero_add, zero_add, zero_add,
    ← Finset.sum_add_distrib, ← Finset.sum_sub_distrib]
  refine Finset.sum_congr rfl fun j _ => ?_
  rw [hc0, hc1, hma, hmb]
  unfold Scalar.select
  split <;> ring

/-- The row law over the extended reals, every entry finite. -/
theorem row_law (n : ℕ) (h : EReal) (dx : Fin n → EReal) (c0 c1 p t : Fin (n + 1) → EReal)
    (ma mb : Fin (n + 1) → BitVec 1) (mr : Fin n → BitVec 1)
    (hh : h ≠ ⊤ ∧ h ≠ ⊥) (hdx : ∀ j, dx j ≠ ⊤ ∧ dx j ≠ ⊥)
    (hp : ∀ q, p q ≠ ⊤ ∧ p q ≠ ⊥) (ht : ∀ q, t q ≠ ⊤ ∧ t q ≠ ⊥)
    (hc0 : ∀ j : Fin n, c0 j.castSucc = h * dx j) (hc0l : c0 (Fin.last n) = 0)
    (hc1 : ∀ j : Fin n, c1 j.succ = h * dx j) (hc10 : c1 0 = 0)
    (hma : ∀ j : Fin n, ma j.castSucc = mr j) (hmb : ∀ j : Fin n, mb j.succ = mr j) :
    ∑ q, (Scalar.select (ma q) (c0 q) 0 + Scalar.select (mb q) (c1 q) 0) * (p q - t q)
      = (0 + ∑ j : Fin n, Scalar.select (mr j) ((h * (p j.castSucc + p j.succ)) * dx j) 0)
        - (0 + ∑ j : Fin n, Scalar.select (mr j) ((h * (t j.castSucc + t j.succ)) * dx j) 0) := by
  lift h to ℝ using hh
  lift dx to Fin n → ℝ using hdx
  lift p to Fin (n + 1) → ℝ using hp
  lift t to Fin (n + 1) → ℝ using ht
  -- the two tables are real too: a product of reals at a point with a segment, zero at the other
  have e0 : c0 = fun q => ((Fin.lastCases (0 : ℝ) (fun j => h * dx j) q : ℝ) : EReal) := by
    funext q
    refine Fin.lastCases ?_ (fun j => ?_) q
    · rw [hc0l, Fin.lastCases_last, EReal.coe_zero]
    · rw [hc0, Fin.lastCases_castSucc, EReal.coe_mul]
  have e1 : c1 = fun q => ((Fin.cases (0 : ℝ) (fun j => h * dx j) q : ℝ) : EReal) := by
    funext q
    refine Fin.cases ?_ (fun j => ?_) q
    · rw [hc10, Fin.cases_zero, EReal.coe_zero]
    · rw [hc1, Fin.cases_succ, EReal.coe_mul]
  subst e0 e1
  have hreal := row_law_real n h dx (fun q => Fin.lastCases (0 : ℝ) (fun j => h * dx j) q)
    (fun q => Fin.cases (0 : ℝ) (fun j => h * dx j) q) p t ma mb mr
    (fun j => by simp only [Fin.lastCases_castSucc]) (by simp only [Fin.lastCases_last])
    (fun j => by simp only [Fin.cases_succ]) (by simp only [Fin.cases_zero]) hma hmb
  have hE := congrArg (fun r : ℝ => (r : EReal)) hreal
  simp only [EReal.coe_add, EReal.coe_sub, EReal.coe_mul, coe_sum, EReal.coe_zero, coe_select] at hE
  exact hE

end Cert.Strain
-- ==== Proof.Masks.lean ====
/-
  The masks.  Both programs compare a position along the curve, written as a 32-bit word, with the sample's threshold
  word, as signed integers: the reference asks "segment `j` lies below the threshold" (`j < θ`), the kernel asks the same
  of a point's right-hand segment and "`q ≤ θ`" of its left-hand one.  For positions that are small non-negative numbers
  the word of a position reads, as a signed integer, the position itself, so `j + 1 ≤ θ` and `j < θ` are one condition
  whatever the threshold word is: the left-hand mask at point `j + 1` is the reference's mask of segment `j`.
-/
import Idealize.ShloMosaic.PureOps.Ideal

namespace Cert.Strain

open Idealize.ShloMosaic

/-- The 32-bit word of a position below 8192 reads, as a signed integer, that position. -/
theorem toInt_ofNat_small (j : ℕ) (h : j < 8192) : (BitVec.ofNat 32 j).toInt = (j : ℤ) := by
  have hn : (BitVec.ofNat 32 j).toNat = j := by
    rw [BitVec.toNat_ofNat]; exact Nat.mod_eq_of_lt (by omega)
  rw [BitVec.toInt_eq_toNat_of_lt (by rw [hn]; omega), hn]

/-- "Position `j + 1` is at most the threshold" and "position `j` is below it" are the same bit. -/
theorem sle_succ_eq_slt (j : ℕ) (hj : j + 1 < 8192) (θ : BitVec 32) :
    IntOp.cmpi .sle (BitVec.ofNat 32 (j + 1)) θ = IntOp.cmpi .slt (BitVec.ofNat 32 j) θ := by
  unfold IntOp.cmpi
  refine congrArg BitVec.ofBool ?_
  show (BitVec.ofNat 32 (j + 1)).sle θ = (BitVec.ofNat 32 j).slt θ
  rw [BitVec.sle_eq_decide, BitVec.slt_eq_decide, toInt_ofNat_small _ hj, toInt_ofNat_small j (by omega)]
  refine decide_eq_decide.mpr ?_
  push_cast
  omega

end Cert.Strain
-- ==== Proof.Bridge.lean ====
/-
  The bridge between the two rows: the kernel's weighted sum over the 8192 points of a row is the difference of the
  reference's two trapezoid integrals over the row's 8191 segments, when the grid and the two curves hold real numbers
  and the kernel's two tables are what its wrapper builds — half the width of the segment to the right of a point (zero
  at the last point) and half the width of the segment to its left (zero at the first point).
-/
import proofs.«156395_j84198538871524_2_alg».proof.Proof.RowLaw
import proofs.«156395_j84198538871524_2_alg».proof.Proof.Masks
import proofs.«156395_j84198538871524_2_alg».proof.Proof.Spec

namespace Cert.Strain

open Idealize.ShloMosaic Idealize.ShloMosaic.ValueIdx

/-- The row law with the number of points written as a numeral `N = n + 1`: point `j` and point `j + 1` are the two
    ends of segment `j`, point `n` the last and point `0` the first. -/
theorem row_law_lit (n N : ℕ) (hN : N = n + 1) (h : EReal) (dx : Fin n → EReal) (c0 c1 p t : Fin N → EReal)
    (ma mb : Fin N → BitVec 1) (mr : Fin n → BitVec 1)
    (hh : h ≠ ⊤ ∧ h ≠ ⊥) (hdx : ∀ j, dx j ≠ ⊤ ∧ dx j ≠ ⊥)
    (hp : ∀ q, p q ≠ ⊤ ∧ p q ≠ ⊥) (ht : ∀ q, t q ≠ ⊤ ∧ t q ≠ ⊥)
    (hc0 : ∀ j : Fin n, c0 ⟨j.val, by omega⟩ = h * dx j) (hc0l : c0 ⟨n, by omega⟩ = 0)
    (hc1 : ∀ j : Fin n, c1 ⟨j.val + 1, by omega⟩ = h * dx j) (hc10 : c1 ⟨0, by omega⟩ = 0)
    (hma : ∀ j : Fin n, ma ⟨j.val, by omega⟩ = mr j) (hmb : ∀ j : Fin n, mb ⟨j.val + 1, by omega⟩ = mr j) :
    ∑ q, (Scalar.select (ma q) (c0 q) 0 + Scalar.select (mb q) (c1 q) 0) * (p q - t q)
      = (0 + ∑ j : Fin n, Scalar.select (mr j) ((h * (p ⟨j.val, by omega⟩ + p ⟨j.val + 1, by omega⟩)) * dx j) 0)
        - (0 + ∑ j : Fin n, Scalar.select (mr j) ((h * (t ⟨j.val, by omega⟩ + t ⟨j.val + 1, by omega⟩)) * dx j) 0) := by
  subst hN
  exact row_law n h dx c0 c1 p t ma mb mr hh hdx hp ht hc0 hc0l hc1 hc10 hma hmb

/-- The width of a segment of a real grid is real. -/
theorem dxAt_finite (X : (⟨1, ![8192]⟩ : Shape).Idx → EReal) (hX : ∀ i, X i ≠ ⊤ ∧ X i ≠ ⊥) (j : Fin 8191) :
    dxAt X j ≠ ⊤ ∧ dxAt X j ≠ ⊥ := by
  lift X to (⟨1, ![8192]⟩ : Shape).Idx → ℝ using hX
  unfold dxAt
  rw [← EReal.coe_sub]
  exact ⟨EReal.coe_ne_top _, EReal.coe_ne_bot _⟩

/-- One row: the kernel's sum over points is the reference's difference of integrals. -/
theorem kerRow_eq (X : (⟨1, ![8192]⟩ : Shape).Idx → EReal) (hX : ∀ i, X i ≠ ⊤ ∧ X i ≠ ⊥) (θ : BitVec 32)
    (W0 W1 P T : Fin 8192 → EReal) (hP : ∀ q, P q ≠ ⊤ ∧ P q ≠ ⊥) (hT : ∀ q, T q ≠ ⊤ ∧ T q ≠ ⊥)
    (hW0 : ∀ j : Fin 8191, W0 ⟨j.val, by omega⟩ = half * dxAt X j) (hW0l : W0 ⟨8191, by omega⟩ = 0)
    (hW1 : ∀ j : Fin 8191, W1 ⟨j.val + 1, by omega⟩ = half * dxAt X j) (hW10 : W1 ⟨0, by omega⟩ = 0) :
    kerRow θ W0 W1 P T = refRow (dxAt X) θ P - refRow (dxAt X) θ T := by
  unfold kerRow refRow
  exact row_law_lit 8191 8192 rfl half (dxAt X) W0 W1 P T
    (fun q => IntOp.cmpi .slt (BitVec.ofNat 32 q.val) θ) (fun q => IntOp.cmpi .sle (BitVec.ofNat 32 q.val) θ)
    (fun j => IntOp.cmpi .slt (BitVec.ofNat 32 j.val) θ)
    half_finite (dxAt_finite X hX) hP hT hW0 hW0l hW1 hW10 (fun _ => rfl)
    (fun j => sle_succ_eq_slt j.val (by omega) θ)

end Cert.Strain
-- ==== Proof.KTail.lean ====
/-
  The kernel program's result.  After the launch the wrapper sums the output column over all its entries and divides by
  4096.  The column is `sqErr` of the arrays the launch found (`KArray`), so the result is the mean over the samples of
  the squared weighted row sums; the tables and the thresholds column the launch found are the wrapper's (`KTables`), so,
  when the three float arguments hold real numbers, each weighted row sum is the difference of the reference's two
  trapezoid integrals (`Bridge`), and the result is the reference's function of the arguments.
-/
import proofs.«156395_j84198538871524_2_alg».proof.Proof.KArray
import proofs.«156395_j84198538871524_2_alg».proof.Proof.KTables
import proofs.«156395_j84198538871524_2_alg».proof.Proof.Bridge
import Idealize.ShloMosaic.Lib.StableHlo.Run

noncomputable section

namespace Cert.KernelIdeal.Strain

open Idealize.ShloMosaic Idealize.ShloMosaic.TcCoe Idealize.ShloMosaic.ValueIdx Idealize.SL.Sem
open Cert.KernelIdeal Cert.KernelIdeal.Gen Cert.Strain

variable (m : (ℓ : Loc nD τ sig) → Buf (Elt Ideal) ℓ)

/-- The predicted curves as launched. -/
abbrev predOf (c : Dev nD) : FVec Ideal S4096x8192 .f32 := m ((c : Thread nD τ).loc main_arg0)
/-- The true curves as launched. -/
abbrev trueOf (c : Dev nD) : FVec Ideal S4096x8192 .f32 := m ((c : Thread nD τ).loc main_arg1)

/-- The result buffer after the lines that follow the launch: the sum of the output column from zero, over 4096. -/
theorem tail_eq (c : Dev nD) :
    (Pipeline.afterTail₀ cfgs (dats (F := Ideal) m) 0 (V0 m) [hostOps1] c main_v16 : S_.Idx → EReal)
      = Host.divf (F := Ideal)
          (Host.reduceAdd (F := Ideal) (sqErr (V m c main_v1) (V m c main_v9) (V m c main_v13) (V m c main_arg0) (V m c main_arg1))
            (constant (F := Ideal) S_ .f32 0x00000000#32) reducesTo_S4096x1_S_d0_1 h_S_)
          (constant (F := Ideal) S_ .f32 0x45800000#32) := by
  unfold Pipeline.afterTail₀
  show StableHlo.after hostOps1 _ (Proc.devRef .tc main_v16) = _
  after_results
  have hA : Pipeline.withArrays (cfgs 0).spec c (V0 m c) (fun w => (dats m 0 c).arrAt w (cfgs 0).N) (Proc.devRef .tc main_v14)
      = sqErr (V m c main_v1) (V m c main_v9) (V m c main_v13) (V m c main_arg0) (V m c main_arg1) :=
    (Pipeline.withArrays_arr spec0 launch0.win.arr_inj c _ _ 5).trans (final5 m c)
  rw [hA]

/-- The sum of a column over all its entries, from zero: the sum over the samples. -/
theorem reduce_col (y : FVec Ideal S4096x1 .f32) (i : S_.Idx) :
    Host.reduceAdd (F := Ideal) y (constant (F := Ideal) S_ .f32 0x00000000#32) reducesTo_S4096x1_S_d0_1 h_S_ i
      = 0 + ∑ r : Fin 4096, y (ix2 r (0 : Fin 1)) := by
  simp only [Host.reduceAdd, Ideal.hostReduceAdd_def]
  refine (Ideal.hostReduceAdd_total reducesTo_S4096x1_S_d0_1 (fun b => b.elim0) y _ i).trans ?_
  refine congrArg₂ (· + ·) Ideal.ofBits_zero_f32 ?_
  rw [sum_idx2]
  exact Finset.sum_congr rfl fun r _ => Fin.sum_univ_one _

/-- THE KERNEL PROGRAM'S RESULT, the float arguments holding real numbers: the reference's function of the arguments. -/
theorem kernel_value (c : Dev nD)
    (h0 : ∀ i, predOf m c i ≠ ⊤ ∧ predOf m c i ≠ ⊥) (h1 : ∀ i, trueOf m c i ≠ ⊤ ∧ trueOf m c i ≠ ⊥)
    (h2 : ∀ i, gridOf m c i ≠ ⊤ ∧ gridOf m c i ≠ ⊥) :
    (Pipeline.afterTail₀ cfgs (dats (F := Ideal) m) 0 (V0 m) [hostOps1] c main_v16 : S_.Idx → EReal)
      = fun _ => meanSq (fun r =>
          refRow (dxAt (gridOf m c)) (thr (idxOf m c) r) (fun q => predOf m c (ix2 r q))
          - refRow (dxAt (gridOf m c)) (thr (idxOf m c) r) (fun q => trueOf m c (ix2 r q))) := by
  rw [tail_eq]
  funext i
  unfold meanSq
  refine congrArg₂ Ideal.div ?_ rfl
  refine (reduce_col _ i).trans ?_
  refine congrArg (0 + ·) (Finset.sum_congr rfl fun r _ => ?_)
  have hrow : kerRow (V m c main_v1 (ix2 r (0 : Fin 1))) (fun q => V m c main_v9 (ix2 (0 : Fin 1) q))
      (fun q => V m c main_v13 (ix2 (0 : Fin 1) q)) (fun q => V m c main_arg0 (ix2 r q)) (fun q => V m c main_arg1 (ix2 r q))
      = refRow (dxAt (gridOf m c)) (thr (idxOf m c) r) (fun q => predOf m c (ix2 r q))
        - refRow (dxAt (gridOf m c)) (thr (idxOf m c) r) (fun q => trueOf m c (ix2 r q)) := by
    rw [thr_at, V_main_arg0, V_main_arg1]
    exact kerRow_eq (gridOf m c) h2 _ _ _ _ _ (fun q => h0 _) (fun q => h1 _)
      (W0_seg m c) (W0_last m c) (W1_seg m c) (W1_first m c)
  show kerRow (V m c main_v1 (ix2 r (0 : Fin 1))) (fun q => V m c main_v9 (ix2 (0 : Fin 1) q))
      (fun q => V m c main_v13 (ix2 (0 : Fin 1) q)) (fun q => V m c main_arg0 (ix2 r q)) (fun q => V m c main_arg1 (ix2 r q))
    * kerRow (V m c main_v1 (ix2 r (0 : Fin 1))) (fun q => V m c main_v9 (ix2 (0 : Fin 1) q))
      (fun q => V m c main_v13 (ix2 (0 : Fin 1) q)) (fun q => V m c main_arg0 (ix2 r q)) (fun q => V m c main_arg1 (ix2 r q)) = _
  rw [hrow]

end Cert.KernelIdeal.Strain

end
-- ==== Proof.RefValue.lean ====
/-
  The reference's result as the specification's function of the arguments.

  Read one operation at a time, the reference computes for sample `r` and curve `Y` (the predicted curve, then the
  true one) the masked sum over the 8191 segments `k`:  (k < θ_r ? (½ · (Y_{r,k} + Y_{r,k+1})) · (x_{k+1} − x_k) : 0),
  which is `refRow` of the grid's widths, the clipped threshold and row `r` of the curve; then the difference of the two
  sums, its square, the sum over the samples and the division by 4096: `meanSq` of the differences.
-/
import proofs.«156395_j84198538871524_2_alg».proof.Proof.Gen.ReferenceIdeal.Read
import proofs.«156395_j84198538871524_2_alg».proof.Proof.Spec

namespace Cert.ReferenceIdeal.Strain

open Idealize.ShloMosaic Idealize.ShloMosaic.ValueIdx Cert.ReferenceIdeal Cert.ReferenceIdeal.Read Cert.Strain

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The predicted curve's masked integral for sample `r`. -/
theorem row_pred (x0 : (⟨S4096x8192, .f32⟩ : BufTy).Contents (Elt Ideal)) (x2 : (⟨S8192, .f32⟩ : BufTy).Contents (Elt Ideal))
    (x3 : (⟨S4096, .i32⟩ : BufTy).Contents (Elt Ideal)) (r : Fin 4096) :
    val_main_v19 (F := Ideal) x0 x2 x3 (ix1 r) = refRow (dxAt x2) (thr x3 r) (fun q => x0 (ix2 r q)) := by
  rw [val_main_v19_apply]
  unfold refRow
  refine congrArg₂ (· + ·) ?_ (Finset.sum_congr rfl fun k _ => ?_)
  · exact Ideal.ofBits_zero_f32
  · simp only [val_main_v18_apply, val_main_v17_apply, val_main_v15_apply, val_main_v13_apply, val_main_v12_apply,
      val_main_v16_apply, val_main_v14_apply, val_main_v0_apply, val_main_call0_v4_apply, val_main_call0_v3_apply,
      val_main_c_0_apply, val_main_call0_v2_apply, val_main_call0_v1_apply, val_main_call0_v0_apply, val_main_c_apply,
      val_main_v11_apply, val_main_v8_apply, val_main_v7_apply, val_main_cst_apply, val_main_v6_apply, val_main_v4_apply,
      val_main_v5_apply, val_main_v10_apply, val_main_v9_apply, val_main_v3_apply, val_main_v1_apply, val_main_v2_apply,
      val_main_call1_v1_apply, val_main_call1_v0_apply, val_main_cst_1_apply]
    have e3 : idx_main_v14 (idx_main_v16 (idx_main_v19 (ix1 r) k)) = ix1 r :=
      funext fun a => Fin.ext (by match a with | ⟨0, _⟩ => rfl)
    have e4 : idx_main_v4 (idx_main_v19 (ix1 r) k) = ix2 r (⟨k.val, by omega⟩ : Fin 8192) :=
      funext fun a => Fin.ext (by match a with | ⟨0, _⟩ => rfl | ⟨1, _⟩ => rfl)
    have e5 : idx_main_v5 (idx_main_v19 (ix1 r) k) = ix2 r (⟨k.val + 1, by omega⟩ : Fin 8192) :=
      funext fun a => Fin.ext (by match a with | ⟨0, _⟩ => rfl | ⟨1, _⟩ => exact Nat.add_comm 1 k.val)
    have e1 : idx_main_v1 (idx_main_v9 (idx_main_v10 (idx_main_v19 (ix1 r) k))) = ix1 (⟨k.val + 1, by omega⟩ : Fin 8192) :=
      funext fun a => Fin.ext (by match a with | ⟨0, _⟩ => exact Nat.add_comm 1 k.val)
    have e2 : idx_main_v2 (idx_main_v9 (idx_main_v10 (idx_main_v19 (ix1 r) k))) = ix1 (⟨k.val, by omega⟩ : Fin 8192) :=
      funext fun a => Fin.ext (by match a with | ⟨0, _⟩ => rfl)
    rw [e3, e4, e5, e1, e2]
    show Scalar.select _ _ (Ideal.ofBits .f32 0#32) = _
    rw [Ideal.ofBits_zero_f32]
    rfl

/-- The true curve's masked integral for sample `r`. -/
theorem row_true (x1 : (⟨S4096x8192, .f32⟩ : BufTy).Contents (Elt Ideal)) (x2 : (⟨S8192, .f32⟩ : BufTy).Contents (Elt Ideal))
    (x3 : (⟨S4096, .i32⟩ : BufTy).Contents (Elt Ideal)) (r : Fin 4096) :
    val_main_v38 (F := Ideal) x1 x2 x3 (ix1 r) = refRow (dxAt x2) (thr x3 r) (fun q => x1 (ix2 r q)) := by
  rw [val_main_v38_apply]
  unfold refRow
  refine congrArg₂ (· + ·) ?_ (Finset.sum_congr rfl fun k _ => ?_)
  · exact Ideal.ofBits_zero_f32
  · simp only [val_main_v37_apply, val_main_v36_apply, val_main_v34_apply, val_main_v32_apply, val_main_v31_apply,
      val_main_v35_apply, val_main_v33_apply, val_main_v0_apply, val_main_call0_v4_apply, val_main_call0_v3_apply,
      val_main_c_0_apply, val_main_call0_v2_apply, val_main_call0_v1_apply, val_main_call0_v0_apply, val_main_c_apply,
      val_main_v30_apply, val_main_v27_apply, val_main_v26_apply, val_main_cst_3_apply, val_main_v25_apply, val_main_v23_apply,
      val_main_v24_apply, val_main_v29_apply, val_main_v28_apply, val_main_v22_apply, val_main_v20_apply, val_main_v21_apply,
      val_main_call2_v1_apply, val_main_call2_v0_apply, val_main_cst_4_apply]
    have e3 : idx_main_v33 (idx_main_v35 (idx_main_v38 (ix1 r) k)) = ix1 r :=
      funext fun a => Fin.ext (by match a with | ⟨0, _⟩ => rfl)
    have e4 : idx_main_v23 (idx_main_v38 (ix1 r) k) = ix2 r (⟨k.val, by omega⟩ : Fin 8192) :=
      funext fun a => Fin.ext (by match a with | ⟨0, _⟩ => rfl | ⟨1, _⟩ => rfl)
    have e5 : idx_main_v24 (idx_main_v38 (ix1 r) k) = ix2 r (⟨k.val + 1, by omega⟩ : Fin 8192) :=
      funext fun a => Fin.ext (by match a with | ⟨0, _⟩ => rfl | ⟨1, _⟩ => exact Nat.add_comm 1 k.val)
    have e1 : idx_main_v20 (idx_main_v28 (idx_main_v29 (idx_main_v38 (ix1 r) k))) = ix1 (⟨k.val + 1, by omega⟩ : Fin 8192) :=
      funext fun a => Fin.ext (by match a with | ⟨0, _⟩ => exact Nat.add_comm 1 k.val)
    have e2 : idx_main_v21 (idx_main_v28 (idx_main_v29 (idx_main_v38 (ix1 r) k))) = ix1 (⟨k.val, by omega⟩ : Fin 8192) :=
      funext fun a => Fin.ext (by match a with | ⟨0, _⟩ => rfl)
    rw [e3, e4, e5, e1, e2]
    show Scalar.select _ _ (Ideal.ofBits .f32 0#32) = _
    rw [Ideal.ofBits_zero_f32]
    rfl

/-- The reference's result: the mean over the samples of the squared difference of the two integrals. -/
theorem ref_value (x0 x1 : (⟨S4096x8192, .f32⟩ : BufTy).Contents (Elt Ideal)) (x2 : (⟨S8192, .f32⟩ : BufTy).Contents (Elt Ideal))
    (x3 : (⟨S4096, .i32⟩ : BufTy).Contents (Elt Ideal)) :
    val_main_v42 (F := Ideal) x0 x1 x2 x3
      = fun _ => meanSq (fun r => refRow (dxAt x2) (thr x3 r) (fun q => x0 (ix2 r q))
          - refRow (dxAt x2) (thr x3 r) (fun q => x1 (ix2 r q))) := by
  funext i
  rw [val_main_v42_apply, val_main_v41_apply]
  unfold meanSq
  refine congrArg₂ Ideal.div (congrArg₂ (· + ·) Ideal.ofBits_zero_f32 ?_) rfl
  rw [sum_idx1]
  refine Finset.sum_congr rfl fun r _ => ?_
  rw [val_main_v40_apply, val_main_v39_apply, row_pred, row_true]
  rfl

end Cert.ReferenceIdeal.Strain
-- ==== Proof.Finite.lean ====
/-
  Finiteness.  The precondition says, of each of the three float arguments, that every entry's absolute value is below
  `+∞` — a conjunction of three "for all entries" statements, printed as three and-reductions joined by two `and`s.
  Read back entry by entry: `max x (−x) < ⊤` leaves `x` neither `⊤` nor `⊥`, i.e. a real number.
-/
import proofs.«156395_j84198538871524_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Strain

open Idealize.ShloMosaic

/-- An extended real whose absolute value compares below the pattern of `+∞` is finite. -/
theorem finite_of_abs_lt (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  have hlt : max x (-x) < ⊤ := by
    by_contra hn
    unfold Ideal.cmp at h
    simp [hn] at h
  constructor
  · rintro rfl; simp at hlt
  · rintro rfl; simp at hlt

instance : Subsingleton Cert.Pre_finite_inputs.S_.Idx := ⟨fun _ _ => funext fun d => d.elim0⟩

/-- The precondition, read back: the three float arguments hold real numbers only. -/
theorem finite_of_pre [Cert.Pre_finite_inputs.Facts]
    (a0 a1 : FVec Ideal Cert.Pre_finite_inputs.S4096x8192 .f32) (a2 : FVec Ideal Cert.Pre_finite_inputs.S8192 .f32)
    (a3 : IVec Cert.Pre_finite_inputs.S4096 32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [Cert.Pre_finite_inputs.fn] at h0
  obtain ⟨h01, h2⟩ := IntOp.andi_eq_one.mp h0
  obtain ⟨h0', h1'⟩ := IntOp.andi_eq_one.mp h01
  refine ⟨fun i => finite_of_abs_lt _ ?_, fun i => finite_of_abs_lt _ ?_, fun i => finite_of_abs_lt _ ?_⟩
  · exact Host.reduce_andi_all _ _ _ _ _ h0' i
  · exact Host.reduce_andi_all _ _ _ _ _ h1' i
  · exact Host.reduce_andi_all _ _ _ _ _ h2 i

end Cert.Strain
-- ==== Proof.lean ====
/-
  The strain-energy loss: the mean over 4096 samples of the squared difference between two masked trapezoid integrals
  (of a predicted and of a true curve over one grid of 8192 positions, each sample integrated up to its own clipped
  threshold) — computed by a Pallas kernel that streams the two curves once, against the plain jnp reference.

  The reference integrates each curve segment by segment: segment `j` below the threshold contributes
  `½ · (y_j + y_{j+1}) · (x_{j+1} − x_j)`.  The kernel rewrites the two integrals' difference as ONE weighted sum over the
  points of the row, `Σ_q w_q · (p_q − t_q)`, with `w_q` half the width of the segment right of `q` (if `q < θ`) plus half
  the width of the segment left of it (if `q ≤ θ`), the halves precomputed as two tables outside the kernel.  Over the real
  numbers the two are equal (module RowLaw: split the kernel's sum at the first and last point, then distributivity;
  module Masks: `j + 1 ≤ θ` and `j < θ` are one bit).  Over the extended reals distributivity needs finite entries, which is
  what the precondition gives (module Finite).  The rest is reading: the kernel body at an entry (KPayload), the 32 blocks
  of 128 samples as one array (KArray), the wrapper's tables and clipped thresholds (Tables, KTables), the lines after the
  launch (KTail), and the reference one operation at a time (RefValue).

  The three frames are the generated ones (the reference's is its generated run with the result dropped); the ideal pass
  rewrote nothing, so `preserves` is trivial.
-/
import proofs.«156395_j84198538871524_2_alg».proof.Defs
import proofs.«156395_j84198538871524_2_alg».proof.Proof.Gen.Kernel
import proofs.«156395_j84198538871524_2_alg».proof.Proof.Gen.Kernel.Skeleton
import proofs.«156395_j84198538871524_2_alg».proof.Proof.Gen.Kernel.Launch
import proofs.«156395_j84198538871524_2_alg».proof.Proof.Gen.Kernel.Points
import proofs.«156395_j84198538871524_2_alg».proof.Proof.Gen.Kernel.Frame
import proofs.«156395_j84198538871524_2_alg».proof.Proof.Gen.KernelIdeal
import proofs.«156395_j84198538871524_2_alg».proof.Proof.Gen.KernelIdeal.Skeleton
import proofs.«156395_j84198538871524_2_alg».proof.Proof.Gen.KernelIdeal.Launch
import proofs.«156395_j84198538871524_2_alg».proof.Proof.Gen.KernelIdeal.Points
import proofs.«156395_j84198538871524_2_alg».proof.Proof.Gen.KernelIdeal.Frame
import proofs.«156395_j84198538871524_2_alg».proof.Proof.Gen.ReferenceIdeal
import proofs.«156395_j84198538871524_2_alg».proof.Proof.Gen.Pre_finite_inputs
import proofs.«156395_j84198538871524_2_alg».proof.Proof.Gen.ReferenceIdeal.Run
import proofs.«156395_j84198538871524_2_alg».proof.Proof.Gen.ReferenceIdeal.Read
import proofs.«156395_j84198538871524_2_alg».proof.Proof.KTail
import proofs.«156395_j84198538871524_2_alg».proof.Proof.RefValue
import proofs.«156395_j84198538871524_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelRun

open Cert.KernelIdeal Cert.KernelIdeal.Gen

/-- The kernel program's run with its result named: what the lines after the launch leave in the result buffer; the four
    arguments end as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = Pipeline.afterTail₀ cfgs (dats (F := Ideal) m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v16 (Pipeline.mem_restRefs_of main_v16 (by decide) (by decide)),
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end KernelRun

/-- At `Ideal`, from memories agreeing on the arguments, of which the precondition holds: the kernel program's result is
    the reference's function of the arguments (`kernel_value`, which uses the finiteness the precondition gives), and so is
    the reference's (`ref_value`). -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0
      (Cert.KernelIdeal.Gen.V0 m) [Cert.KernelIdeal.Gen.hostOps1] c Cert.KernelIdeal.main_v16, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Strain.finite_of_pre _ _ _ _ (hpre c)
  refine (Cert.ReferenceIdeal.Read.val_main_v42_eq m' c).trans ?_
  refine (Cert.ReferenceIdeal.Strain.ref_value _ _ _ _).trans ?_
  rw [(hagree c).1, (hagree c).2.1, (hagree c).2.2.1, (hagree c).2.2.2]
  exact (Cert.KernelIdeal.Strain.kernel_value m c f0 f1 f2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
